-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x8192 .f32) (main_arg1 : FVec F S8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192x8192 : Shape := ⟨2, ![8192, 8192]⟩
abbrev S8192 : Shape := ⟨1, ![8192]⟩
abbrev S1x8192 : Shape := ⟨2, ![1, 8192]⟩
abbrev S1024x2048 : Shape := ⟨2, ![1024, 2048]⟩
abbrev S1x2048 : Shape := ⟨2, ![1, 2048]⟩
abbrev S2048 : Shape := ⟨1, ![2048]⟩
abbrev S_ : Shape := ⟨0, ![]⟩

abbrev nBuf : Space → Nat
  | .hbm => 8
  | .vmem => 5
  | .smem => 0
  | _ => 0

abbrev bufTy : (tb : Table) → Fin (tcTables nBuf tb) → BufTy
  | .hbm, ⟨0, _⟩ => ⟨S8192x8192, .f32⟩
  | .hbm, ⟨1, _⟩ => ⟨S8192, .f32⟩
  | .hbm, ⟨2, _⟩ => ⟨S1x8192, .f32⟩
  | .hbm, ⟨3, _⟩ => ⟨S8192x8192, .i32⟩
  | .hbm, ⟨4, _⟩ => ⟨S_, .i32⟩
  | .hbm, ⟨5, _⟩ => ⟨S8192x8192, .i32⟩
  | .hbm, ⟨6, _⟩ => ⟨S8192x8192, .i1⟩
  | .hbm, ⟨7, _⟩ => ⟨S8192x8192, .i1⟩
  | .local _ .vmem, ⟨0, _⟩ => ⟨S1024x2048, .f32⟩
  | .local _ .vmem, ⟨1, _⟩ => ⟨S1024x2048, .f32⟩
  | .local _ .vmem, ⟨2, _⟩ => ⟨S1x8192, .f32⟩
  | .local _ .vmem, ⟨3, _⟩ => ⟨S1024x2048, .i32⟩
  | .local _ .vmem, ⟨4, _⟩ => ⟨S1024x2048, .i32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v0 : BitVec 32 := Scalar.muli arg1 c2048_i32
  v0
def k0_off1 (i : grid0.Coords) : Fin 2 → Nat :=
  let c0 : Index := 0#32
  let arg1 : BitVec 32 := BitVec.ofNat 32 (i 1).val
  let c2048_i32 : BitVec 32 := 2048#32
  let v0 : BitVec 32 := Scalar.muli arg1 c2048_i32
  let v1 : BitVec 32 := v0
  let v2 : Index := Scalar.indexCast v1
  ![0, v2.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8192_S1x8192 : S8192.ShapeCasts S1x8192
  h_S1x2048 : 0 < S1x2048.numel
  shapeCasts_S1x2048_S2048 : S1x2048.ShapeCasts S2048
  inb_S1024x2048_S1024x2048_0_0 : ∀ a, (![0, 0] : Fin 2 → Nat) a + S1024x2048.size a ≤ S1024x2048.size a
  h_S1024x2048 : 0 < S1024x2048.numel
  shapeCasts_S2048_S1x2048 : S2048.ShapeCasts S1x2048
  broadcasts_S1x2048_S1024x2048 : S1x2048.Broadcasts S1024x2048
  natLt_1_32 : 1 < 32
  bcast_S_S8192x8192 : S_.BroadcastsInDim S8192x8192 (![] : Fin 0 → Fin S8192x8192.rank)
  hrank0 : 0 < grid0.rank
  k0_mult1_dvd : ∀ i : grid0.Coords, 128 ∣ (k0_mult1 i).toNat
  k0_off1_inb : ∀ i : grid0.Coords, ∀ a, (k0_off1 i) a + S1x2048.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .i32 = 32 ∨ (Rect.block (s := S8192x8192) S1024x2048.size (cc0_transform_2 i) (hinb0_2 i)).WholeWords (EltTy.packing .i32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192 : Shape := ⟨1, ![8192]⟩
abbrev S_ : Shape := ⟨0, ![]⟩
abbrev S1x8192 : Shape := ⟨2, ![1, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .f32⟩
  | .hbm, ⟨2, _⟩ => ⟨S8192x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .i1⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)

variable [Facts₀]

class Facts : Prop extends Facts₀ where

variable [Facts]
-- ==== Proof.Threshold.lean ====
/-
  What both programs compute, stated once and over no program: for a square array `L` of 8192 × 8192 extended reals and a
  vector `f` of 8192, the entry at (r, c) of the mask is the one-bit answer to "is |L(r,c) · L(r,c) · L(r,c) · f(c)| greater
  than one half", the cube written as two products in the order (L·L)·L and one half as the f32 pattern 0x3F000000.
  Two small facts about it follow: a factor one in the product changes nothing, at any extended real (one is the unit of the
  product, at the infinities too), and a one-bit answer widened to a 32-bit word and tested against zero is the answer again.
-/
import Idealize.ShloMosaic.PureOps.Ideal
import Idealize.ShloMosaic.Lib.ValueIdx
import Idealize.ShloMosaic.Lib.IdealHost

noncomputable section

namespace Cert.LocalMask

open Idealize.ShloMosaic Idealize.ShloMosaic.ValueIdx

/-- One entry of the mask: whether `|((l · l) · l) · f|` exceeds one half, as a one-bit word. -/
def mark (l f : Ideal .f32) : BitVec 1 :=
  FloatOps.cmpf .ogt (FloatOps.absf (FloatOps.mulf (FloatOps.mulf (FloatOps.mulf l l) l) f)) (Ideal.ofBits .f32 0x3F000000#32)

/-- The whole mask: entry (r, c) marks `L (r, c)` against `f c` — every row of `L` is scaled by the same vector. -/
def maskOf (L : (⟨2, ![8192, 8192]⟩ : Shape).Idx → Ideal .f32) (f : (⟨1, ![8192]⟩ : Shape).Idx → Ideal .f32) :
    (⟨2, ![8192, 8192]⟩ : Shape).Idx → BitVec 1 :=
  fun i => mark (L i) (f (ix1 (⟨(i 1).val, (i 1).isLt⟩ : Fin 8192)))

/-- The mask at explicit coordinates. -/
theorem maskOf_ix2 (L : (⟨2, ![8192, 8192]⟩ : Shape).Idx → Ideal .f32) (f : (⟨1, ![8192]⟩ : Shape).Idx → Ideal .f32)
    (r c : Fin 8192) : maskOf L f (ix2 r c) = mark (L (ix2 r c)) (f (ix1 c)) := rfl

/-- A factor one between the cube and the scale changes no entry: `x · 1 = x` on every extended real. -/
theorem mark_of_unit_factor (l f : Ideal .f32) :
    FloatOps.cmpf .ogt (FloatOps.absf (FloatOps.mulf (FloatOps.mulf (FloatOps.mulf (FloatOps.mulf l l) l)
      (Ideal.ofBits .f32 0x3F800000#32)) f)) (Ideal.ofBits .f32 0x3F000000#32) = mark l f := by
  unfold mark
  rw [Ideal.ofBits_one_f32]
  simp only [Ideal.mulf_def, mul_one]

/-- A one-bit word widened with zeros to 32 bits differs from zero exactly when the bit is set. -/
theorem widen_ne_zero (b : BitVec 1) : IntOp.cmpi .ne (b.setWidth 32) 0#32 = b := by
  by_cases h : b = 1#1
  · subst h; decide
  · obtain rfl := eq_zero_of_ne_one h; decide

end Cert.LocalMask

end
-- ==== Proof.RefSide.lean ====
/-
  The reference, read entry by entry. Its program multiplies `L` by itself twice, multiplies the cube by an array of ones,
  spreads `f` first to one row and then down every row, multiplies, takes absolute values and compares with an array of
  one halves. Read at the index (r, c) each of these operations reads its operands at (r, c), the two spreadings read `f`
  at `c`, and the constant arrays read their one value; so the entry is the mark of `L (r, c)` against `f c` with a factor
  one in the product, and the factor drops out.
-/
import proofs.«171219_j28784870817858_2_alg».proof.Defs
import proofs.«171219_j28784870817858_2_alg».proof.Proof.Gen.ReferenceIdeal.Run
import proofs.«171219_j28784870817858_2_alg».proof.Proof.Gen.ReferenceIdeal.Read
import proofs.«171219_j28784870817858_2_alg».proof.Proof.Threshold

noncomputable section

namespace Cert.ReferenceIdeal.MaskValue

open Idealize.ShloMosaic Idealize.ShloMosaic.ValueIdx Cert.ReferenceIdeal Cert.ReferenceIdeal.Read Cert.LocalMask

/-- The two spreadings of `f` composed: the entry (r, c) of the spread array is `f c`. -/
theorem spread_index (r c : Fin 8192) : idx_main_v4 (idx_main_v5 (ix2 r c)) = ix1 c :=
  funext fun a => match a with | ⟨0, _⟩ => rfl

/-- The reference's result is the mask of its two arguments. -/
theorem result_eq_mask (L : (⟨S8192x8192, .f32⟩ : BufTy).Contents (Elt Ideal)) (f : (⟨S8192, .f32⟩ : BufTy).Contents (Elt Ideal)) :
    val_main_v9 (F := Ideal) L f = maskOf L f := by
  funext i
  obtain ⟨r, c, rfl⟩ : ∃ (r c : Fin 8192), i = ix2 r c := ⟨i 0, i 1, eq_ix2 i⟩
  rw [val_main_v9_apply, val_main_v7_apply, val_main_v6_apply, val_main_v3_apply, val_main_v1_apply, val_main_v0_apply,
    val_main_v2_apply, val_main_cst_apply, val_main_v5_apply, val_main_v4_apply, val_main_v8_apply, val_main_cst_0_apply,
    spread_index, maskOf_ix2]
  exact mark_of_unit_factor _ _

end Cert.ReferenceIdeal.MaskValue

end
-- ==== Proof.BodyValue.lean ====
/-
  What the kernel body leaves in its output block at one grid point, as a value. The body reads its whole block of `L`
  (1024 × 2048), reads 2048 consecutive entries of the row holding `f` starting at column 2048 · j (j the point's second
  coordinate), cubes the block entry by entry, scales column s by the s-th entry read, compares the magnitude with one half
  and stores the one-bit answers widened to 32-bit words over the whole output block. So the entry (r, s) of the block is the
  mark of the block's entry (r, s) against the row's entry 2048 · j + s, widened. The row's 2048 entries pass through a cast
  to a vector and back, which cancels, and are then repeated down the 1024 rows.
-/
import proofs.«171219_j28784870817858_2_alg».proof.Proof.Gen.KernelIdeal.Frame
import proofs.«171219_j28784870817858_2_alg».proof.Proof.Threshold
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem

namespace Cert.KernelIdeal.BodyValue

open Cert.KernelIdeal Cert.KernelIdeal.Gen Idealize.ShloMosaic.ValueIdx Cert.LocalMask

theorem zero_offsets : (![0, 0] : Fin 2 → Nat) = fun _ => 0 := funext fun a => by fin_cases a <;> rfl

/-- The body's one store covers the output block, so what the block holds afterwards is the stored value: the body's
    arithmetic applied to the whole block of `L` and to the slice of the row it loaded. -/
theorem stored_eq_payload {F : FTy → Type} [FloatOps F] (c : Dev nD) (i : grid0.Coords)
    (arg2 : Memref sig .tc .vmem S1024x2048 .f32) (harg2 : arg2.IsWhole)
    (arg3 : Memref sig .tc .vmem S1x8192 .f32) (harg3 : arg3.IsWhole)
    (arg4 : Memref sig .tc .vmem S1024x2048 .i32) (harg4 : arg4.IsWhole)
    (x0 : Vec F S1024x2048 .f32) (x1 : Vec F S1x8192 .f32) :
    out0_A_2 c i arg2 harg2 arg3 harg3 arg4 harg4 x0 x1
      = k0_pay1 (View.ld x1 (Rect.unit (s := S1x8192) (k0_off1 i) S1x2048.size (k0_off1_inb i))) x0 := by
  unfold out0_A_2
  rw [View.read_writes_eq_canon _ _ _ (cover0_A_2 c i arg2 harg2 arg3 harg3 arg4 harg4 x0 x1)]
  unfold kernelRun0_A
  dsimp only
  sl_unfold_words
  rw [View.canon_unit_zero zero_offsets]
  simp only [View.readAt_eq_ld, harg2.read_unread, harg3.read_unread, View.ld_unit_zero (S := S1024x2048) zero_offsets]

/-- The body's arithmetic at the entry (r, s): the cast of the loaded row to a vector and back cancels, and the row is
    repeated down the rows, so the entry is the mark of `blk (r, s)` against `row (0, s)`, widened to 32 bits. -/
theorem payload_apply (row : Vec Ideal S1x2048 .f32) (blk : Vec Ideal S1024x2048 .f32) (r : Fin 1024) (s : Fin 2048) :
    k0_pay1 (F := Ideal) row blk (ix2 r s) = (mark (blk (ix2 r s)) (row (ix2 (0 : Fin 1) s))).setWidth 32 := by
  show (FloatOps.cmpf .ogt (FloatOps.absf (FloatOps.mulf (FloatOps.mulf (FloatOps.mulf (blk (ix2 r s)) (blk (ix2 r s))) (blk (ix2 r s)))
      (broadcastTo S1024x2048 (shapeCast S1x2048 (shapeCast S2048 row shapeCasts_S1x2048_S2048) shapeCasts_S2048_S1x2048)
        broadcasts_S1x2048_S1024x2048 (ix2 r s)))) (Scalar.ofBits (F := Ideal) .f32 0x3F000000#32)).setWidth 32 = _
  rw [shapeCast_shapeCast, broadcastTo_1b_ab_apply]
  rfl

/-- The column offset of the row slice at a grid point: 2048 times the point's second coordinate (no wrap-around: the
    coordinate is below 4). -/
theorem slice_offset : ∀ n : Nat, n < 4 →
    (Scalar.indexCast (Scalar.muli (BitVec.ofNat 32 n) 2048#32)).toNat = n * 2048 := by decide

/-- The stored value at (r, s) in terms of the whole row buffer: the row entry used is the one at column
    2048 · j + s. -/
theorem stored_apply (i : grid0.Coords) (blk : Vec Ideal S1024x2048 .f32) (rowbuf : Vec Ideal S1x8192 .f32)
    (r : Fin 1024) (s : Fin 2048) (col : Fin 8192) (hcol : col.val = (i 1).val * 2048 + s.val) :
    k0_pay1 (F := Ideal) (View.ld rowbuf (Rect.unit (s := S1x8192) (k0_off1 i) S1x2048.size (k0_off1_inb i))) blk (ix2 r s)
      = (mark (blk (ix2 r s)) (rowbuf (ix2 (0 : Fin 1) col))).setWidth 32 := by
  refine (payload_apply _ blk r s).trans ?_
  have e : (Rect.unit (s := S1x8192) (k0_off1 i) S1x2048.size (k0_off1_inb i)).toLoadRect.idx (ix2 (0 : Fin 1) s)
      = ix2 (0 : Fin 1) col := by
    funext a
    apply Fin.ext
    match a with
    | ⟨0, _⟩ => rfl
    | ⟨1, _⟩ =>
      show (Scalar.indexCast (Scalar.muli (BitVec.ofNat 32 (i 1).val) 2048#32)).toNat + 1 * s.val = col.val
      rw [slice_offset (i 1).val (i 1).isLt, hcol]; omega
  show (mark (blk (ix2 r s)) (rowbuf ((Rect.unit (s := S1x8192) (k0_off1 i) S1x2048.size (k0_off1_inb i)).toLoadRect.idx
    (ix2 (0 : Fin 1) s)))).setWidth 32 = _
  rw [e]

end Cert.KernelIdeal.BodyValue

end
-- ==== Proof.KernelArray.lean ====
/-
  From the blocks to the whole array. The grid has 8 × 4 points; at the point (p, q) the block of `L` read and the block of
  the output written are both the block (p, q) of their 8192 × 8192 arrays in tiles of 1024 × 2048, and the row holding `f`
  is staged whole at every point. So the element (r, s) of the output block sits at row 1024 · p + r and column 2048 · q + s
  of the array, the block of `L` is read at the same place, and the row entry the body uses, 2048 · q + s, is that column.
  Hence what each point writes back is its block of ONE function of the two arrays the region finds: the mark of the entry of
  `L` against the row's entry in the same column, widened to 32 bits. Every index lies in the block of the point
  (row / 1024, column / 2048), so after the run the output array is that function. The row array itself was written before
  the region by a reshape of `f`.
-/
import proofs.«171219_j28784870817858_2_alg».proof.Proof.BodyValue

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Idealize.ShloMosaic.ValueIdx Cert.LocalMask Cert.KernelIdeal.BodyValue

variable (m : (ℓ : Loc nD τ sig) → Buf (Elt Ideal) ℓ) (ρ : Dev nD → PrngReg)

/-- The entry of the one-row array in the column of a square index. -/
abbrev below (i : S8192x8192.Idx) : S1x8192.Idx := ix2 (0 : Fin 1) (⟨(i 1).val, (i 1).isLt⟩ : Fin 8192)

/-- The 32-bit words the region leaves: at each index the mark of `L` there against the row's entry in that column. -/
def words (L : S8192x8192.Idx → Ideal .f32) (row : S1x8192.Idx → Ideal .f32) : S8192x8192.Idx → BitVec 32 :=
  fun i => (mark (L i) (row (below i))).setWidth 32

/-- The index maps over the grid: the block of `L` moves with the output's block, the row's block stays at the origin,
    and the output's block index is the grid point's coordinates. -/
theorem index_maps : ∀ t : Fin cfg0.N,
    win0_0.index t (0 : Fin 2) = win0_2.index t (0 : Fin 2)
    ∧ win0_0.index t (1 : Fin 2) = win0_2.index t (1 : Fin 2)
    ∧ win0_1.index t (0 : Fin 2) = 0
    ∧ win0_1.index t (1 : Fin 2) = 0
    ∧ win0_2.index t (1 : Fin 2) = (grid0.coords t 1).val
    ∧ (grid0.coords t 1).val < 4 :=
  (by decide +kernel : ∀ t : Fin grid0.N, _)

/-- Every block of the 8 × 4 tiling is some point's. -/
theorem every_block : ∀ (p : Fin 8) (q : Fin 4), ∃ t : Fin cfg0.N, win0_2.index t = ![p.val, q.val] :=
  (by decide +kernel : ∀ (p : Fin 8) (q : Fin 4), ∃ t : Fin grid0.N, win0_2.index t = ![p.val, q.val])

/-- What the point `t` writes back is its block of `words` of the two arrays as the region finds them. -/
theorem flushed_eq (c : Dev nD) (t : Fin cfg0.N) :
    (dats m 0 c).flushed 2 t = ((cfg0.win 2).blk t).view.read (Elt Ideal) (words (V m c main_arg0) (V m c main_v0)) := by
  show (cfg0.win 2).cut (grid0.coords t) ((dats m 0 c).after 2 t) = _
  rw [after0_2]
  unfold outsAt0
  rw [stored_eq_payload c (grid0.coords t) (ms0_0 t) (hs0_0 t) (ms0_1 t) (hs0_1 t) (ms0_2 t) (hs0_2 t) (iblk m c 0 t) (iblk m c 1 t)]
  obtain ⟨e00, e01, e10, e11, e21, hq⟩ := index_maps t
  have key : ∀ (r : Fin 1024) (s : Fin 2048),
      k0_pay1 (F := Ideal) (View.ld (iblk m c 1 t) (Rect.unit (s := S1x8192) (k0_off1 (grid0.coords t)) S1x2048.size (k0_off1_inb (grid0.coords t)))) (iblk m c 0 t) (ix2 r s)
        = words (V m c main_arg0) (V m c main_v0) (((cfg0.win 2).blk t).view.emb (ix2 r s)) := by
    intro r s
    have hs : s.val < 2048 := s.isLt
    refine (stored_apply (grid0.coords t) (iblk m c 0 t) (iblk m c 1 t) r s
      ⟨(grid0.coords t 1).val * 2048 + s.val, by omega⟩ rfl).trans ?_
    have h0 : ((cfg0.win 0).blk t).view.emb (ix2 r s) = ((cfg0.win 2).blk t).view.emb (ix2 r s) := by
      funext a; apply Fin.ext
      match a with
      | ⟨0, _⟩ => show win0_0.index t (0 : Fin 2) * 1024 + 1 * r.val = win0_2.index t (0 : Fin 2) * 1024 + 1 * r.val; rw [e00]
      | ⟨1, _⟩ => show win0_0.index t (1 : Fin 2) * 2048 + 1 * s.val = win0_2.index t (1 : Fin 2) * 2048 + 1 * s.val; rw [e01]
    have h1 : ((cfg0.win 1).blk t).view.emb (ix2 (0 : Fin 1) (⟨(grid0.coords t 1).val * 2048 + s.val, by omega⟩ : Fin 8192))
        = below (((cfg0.win 2).blk t).view.emb (ix2 r s)) := by
      funext a; apply Fin.ext
      match a with
      | ⟨0, _⟩ => show win0_1.index t (0 : Fin 2) * 1 + 1 * 0 = 0; rw [e10]
      | ⟨1, _⟩ => show win0_1.index t (1 : Fin 2) * 8192 + 1 * ((grid0.coords t 1).val * 2048 + s.val) = win0_2.index t (1 : Fin 2) * 2048 + 1 * s.val; rw [e11, e21]; omega
    show (mark (V m c main_arg0 (((cfg0.win 0).blk t).view.emb (ix2 r s)))
        (V m c main_v0 (((cfg0.win 1).blk t).view.emb (ix2 (0 : Fin 1) (⟨(grid0.coords t 1).val * 2048 + s.val, by omega⟩ : Fin 8192))))).setWidth 32
      = (mark (V m c main_arg0 (((cfg0.win 2).blk t).view.emb (ix2 r s))) (V m c main_v0 (below (((cfg0.win 2).blk t).view.emb (ix2 r s))))).setWidth 32
    rw [h0, h1]
  funext y
  have hy : y = ix2 (y 0) (y 1) := eq_ix2 y
  rw [hy]
  exact key (y 0) (y 1)

/-- An index of the array is in point `t`'s block iff each coordinate is in the block's range on its axis. -/
theorem mem_block (t : Fin cfg0.N) (i : S8192x8192.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v1).slice (win0_2.rect t)).set ↔ _
  rw [View.set_slice_whole, Rect.mem_set_unit]
  exact Iff.rfl

/-- Every index is in the block of the point (row / 1024, column / 2048). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := every_block ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- The output array after the run: `words` of the two arrays as the region finds them. -/
theorem array_eq (c : Dev nD) : (dats m 0 c).arrAt 2 cfg0.N = words (V m c main_arg0) (V m c main_v0) :=
  (dats m 0 c).arrAt_eq_of_cover 2 (words (V m c main_arg0) (V m c main_v0)) (fun t _ => flushed_eq m c t) covered

/-- The one-row array the region finds is `f` reshaped (the one host operation before the region). -/
theorem row_eq (c : Dev nD) : (V m c main_v0 : S1x8192.Idx → Ideal .f32)
    = shapeCast S1x8192 (m ((c : Thread nD τ).loc main_arg1)) shapeCasts_S8192_S1x8192 := by
  show StableHlo.after hostOps0 (fun b => m (c, b)) (Proc.devRef .tc main_v0) = _
  after_results
  rfl

end Cert.KernelIdeal.ArrayValue

end
-- ==== Proof.KernelRun.lean ====
/-
  The kernel's whole program, read. After the region two host operations finish the job: the 32-bit words the region wrote
  are compared with zero, word by word, and the one-bit answers are the result (the last operation converts a bit array to a
  bit array and changes nothing). A word is a one-bit mark widened with zeros, so it differs from zero exactly when the mark
  is set: the result is the mark itself at every index. With the row array equal to `f` reshaped to one row, whose entry in
  column c is `f c`, and `L` untouched before the region, the result is the mask of the two arguments.
-/
import proofs.«171219_j28784870817858_2_alg».proof.Proof.KernelArray

noncomputable section

open Idealize.ShloMosaic Idealize.ShloMosaic.TcCoe Idealize.SL.Sem
open Idealize.ShloMosaic.Pipeline (Dat)

namespace Cert.KernelIdeal.RunValue

open Cert.KernelIdeal Cert.KernelIdeal.Gen Idealize.ShloMosaic.ValueIdx Cert.LocalMask Cert.KernelIdeal.ArrayValue

variable (m : (ℓ : Loc nD τ sig) → Buf (Elt Ideal) ℓ) (ρ : Dev nD → PrngReg)

/-- What the program's result buffer holds after the operations that follow the region: the mask of the arguments. -/
theorem result_eq (c : Dev nD) :
    Pipeline.afterTail₀ cfgs (dats m) 0 (V0 m) [hostOps1] c main_v4
      = maskOf (m ((c : Thread nD τ).loc main_arg0)) (m ((c : Thread nD τ).loc main_arg1)) := by
  unfold Pipeline.afterTail₀
  show StableHlo.after hostOps1 _ (Proc.devRef .tc main_v4) = _
  after_results
  rw [(Pipeline.withArrays_arr spec0 launch0.win.arr_inj c _ _ 2).trans (array_eq m c)]
  funext i
  show IntOp.cmpi .ne ((mark (V m c main_arg0 i) (V m c main_v0 (below i))).setWidth 32) 0#32 = _
  rw [widen_ne_zero, V_main_arg0, row_eq]
  exact congrArg (mark _) (shapeCast_a_1a_apply _ _ _ _)

/-- The run of the kernel's program at the extended reals: it ends with the mask of the arguments in its result buffer and
    with the arguments as they were. -/
theorem run : θ_run defs (onTc (τ := τ) (main (F := Ideal))) ⟨m, fun _ => 0, ρ⟩ fun r => ∀ c : Dev nD,
      r.2.mem ((c.tc : Thread nD τ).loc main_v4) = maskOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (result_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.RunValue

end
-- ==== Proof.lean ====
/-
  The thresholded mask of a cubed, column-scaled matrix, computed two ways.

  For `L` an 8192 × 8192 array and `f` a vector of 8192, the result is the array of bits
  "|L(r,c) · L(r,c) · L(r,c) · f(c)| > 1/2". The kernel computes it tile by tile over an 8 × 4 grid of 1024 × 2048 blocks,
  each tile scaled by the matching 2048 entries of `f`, stores the bits as 32-bit words, and turns the words back into bits by
  a comparison with zero after the region. The reference computes it in one sweep over the whole arrays, with an extra factor
  one between the cube and the scale.

  Over the extended reals both are the same function of `L` and `f`, index by index: the tiles are restrictions of one
  whole-array function and together cover the array; a bit widened to a word and compared with zero is the bit; and
  `x · 1 = x` for every extended real, the infinities included, so no finiteness of the inputs is used. The cube is written
  as (L·L)·L on both sides and one half is the same f32 pattern on both sides, so neither is ever evaluated.

  The three programs run to the end without fault and leave their arguments as they were: for the two kernels this is the
  generated frame, for the reference its generated run. The idealization rewrote nothing, so there is nothing to preserve.
-/
import proofs.«171219_j28784870817858_2_alg».proof.Defs
import proofs.«171219_j28784870817858_2_alg».proof.Proof.Gen.Kernel
import proofs.«171219_j28784870817858_2_alg».proof.Proof.Gen.Kernel.Frame
import proofs.«171219_j28784870817858_2_alg».proof.Proof.Gen.KernelIdeal
import proofs.«171219_j28784870817858_2_alg».proof.Proof.Gen.KernelIdeal.Frame
import proofs.«171219_j28784870817858_2_alg».proof.Proof.Gen.ReferenceIdeal
import proofs.«171219_j28784870817858_2_alg».proof.Proof.Gen.ReferenceIdeal.Run
import proofs.«171219_j28784870817858_2_alg».proof.Proof.Gen.ReferenceIdeal.Read
import proofs.«171219_j28784870817858_2_alg».proof.Proof.Gen.Pre_finite_inputs
import proofs.«171219_j28784870817858_2_alg».proof.Proof.RefSide
import proofs.«171219_j28784870817858_2_alg».proof.Proof.KernelRun
import Idealize.ShloMosaic.Adequacy
import Idealize.ShloMosaic.Init

noncomputable section

namespace Cert.Proof

open Idealize.ShloMosaic Idealize.SL.Sem

/-- The kernel as printed runs to the end and leaves `L` and `f` unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of whole-array operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- Over the extended reals, from memories that agree on `L` and `f`, both programs end with the mask of `L` and `f`. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.MaskValue.result_eq_mask, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
